-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64x32 .f32) (main_arg6 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S100000x64 .f32) (main_arg1 : IVec S2x1600000 32) (main_arg2 : FVec F S1600000 .f32) (main_arg3 : FVec F S64x64 .f32) (main_arg4 : FVec F S64 .f32) (main_arg5 : FVec F S64x32 .f32) (main_arg6 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩

abbrev nBuf : Space → Nat
  | .hbm => 87
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S1700000x1, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x32, .f32⟩
  | .hbm, ⟨69, _⟩ => ⟨S1700000x1, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000x32, .f32⟩
  | .hbm, ⟨80, _⟩ => ⟨S1700000x32, .f32⟩
  | .hbm, ⟨81, _⟩ => ⟨S_, .f32⟩
  | .hbm, ⟨82, _⟩ => ⟨S100000x32, .f32⟩
  | .hbm, ⟨83, _⟩ => ⟨S1700000x1, .i32⟩
  | .hbm, ⟨84, _⟩ => ⟨S100000x32, .f32⟩
  | .hbm, ⟨85, _⟩ => ⟨S1x32, .f32⟩
  | .hbm, ⟨86, _⟩ => ⟨S100000x32, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S1x32, .f32⟩
  | .local _ .vmem, ⟨18, _⟩ => ⟨S10000x32, .f32⟩
  | .local _ .vmem, ⟨19, _⟩ => ⟨S10000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 130
  | .vmem => 0
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S64x64, .f32⟩
  | 4 => ⟨S64, .f32⟩
  | 5 => ⟨S64x32, .f32⟩
  | 6 => ⟨S32, .f32⟩
  | 7 => ⟨S1x1600000, .i32⟩
  | 8 => ⟨S1600000, .i32⟩
  | 9 => ⟨S1x1600000, .i32⟩
  | 10 => ⟨S1600000, .i32⟩
  | 11 => ⟨S100000, .i32⟩
  | 12 => ⟨S1700000, .i32⟩
  | 13 => ⟨S1700000, .i32⟩
  | 14 => ⟨S_, .f32⟩
  | 15 => ⟨S100000, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S100000x64, .f32⟩
  | 50 => ⟨S1700000x1, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x64, .f32⟩
  | 61 => ⟨S1700000x64, .f32⟩
  | 62 => ⟨S_, .f32⟩
  | 63 => ⟨S100000x64, .f32⟩
  | 64 => ⟨S1700000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000, .i32⟩
  | 73 => ⟨S1700000, .i32⟩
  | 74 => ⟨S1700000, .i32⟩
  | 75 => ⟨S_, .f32⟩
  | 76 => ⟨S100000, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S100000x32, .f32⟩
  | 111 => ⟨S1700000x1, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x32, .f32⟩
  | 121 => ⟨S1700000x32, .f32⟩
  | 122 => ⟨S1700000x32, .f32⟩
  | 123 => ⟨S_, .f32⟩
  | 124 => ⟨S100000x32, .f32⟩
  | 125 => ⟨S1700000x1, .i32⟩
  | 126 => ⟨S100000x32, .f32⟩
  | 127 => ⟨S1x32, .f32⟩
  | _ => ⟨S100000x64, .f32⟩

abbrev hbmTy0_1 (i : Nat) : BufTy := match i % 128 with
  | 0 => ⟨S100000x32, .f32⟩
  | 1 => ⟨S100000x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_17 : Ref sig .tc := ⟨.hbm, 112, rfl⟩
abbrev main_v80 : Ref sig .tc := ⟨.hbm, 113, rfl⟩
abbrev main_v81 : Ref sig .tc := ⟨.hbm, 114, rfl⟩
abbrev main_c_18 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KernelRun.lean ====
/-
  The idealized kernel's run with its result named.

  @main is nine segments: three stretches of host operations, the first matrix product's region, a host stretch, the
  bias-and-relu region, the second matrix product's region, a host stretch, and the final bias region. The generated
  frame follows the contents of every buffer across those segments (`Gen.W0` … `Gen.W9`: a host stretch applies its
  operations, a region replaces its three arrays by what its write-backs leave). Here the same run is read at the result
  buffer as well as at the arguments: every weakly fair execution terminates, nothing faults, the result array ends at
  `Gen.W9` read at the result's reference, and the seven arguments end as launched.
-/
import proofs.«142502_j55628416418157_1_alg».proof.Defs
import proofs.«142502_j55628416418157_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the result array named: it ends at the last boundary's contents read at the result's
    reference, and every argument ends as launched. -/
theorem run_result : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v63 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.Hand

end
-- ==== Proof.LibPlainDot.lean ====
/-
  A plain matrix product read at an index, at the extended reals.

  For a rank-2 product `[M, K] · [K, N] → [M, N]` (one contracted axis: the left operand's columns against the right
  operand's rows, no batch axis) accumulated into the zero block, the entry at `(p, e)` is the finite sum over the
  contracted coordinate `k` of `lhs (p, k) · rhs (k, e)`. The product's dimension record enters only through four
  coordinate facts about its operand index maps (each is a one-line computation for a literal record), so the lemma
  serves any such record at any extents.
-/
import Idealize.ShloMosaic.Lib.ValueIdx
import Idealize.ShloMosaic.PureOps.Ideal.Laws

noncomputable section

namespace Cert.LibPlainDot

open Idealize.ShloMosaic Idealize.ShloMosaic.ValueIdx

/-- `[M, K] · [K, N]` into the zero accumulator, at `(p, e)`: `∑ₖ lhs (p, k) · rhs (k, e)`. The hypotheses say that the
    record contracts ONE axis of extent `K`, that the left operand is read at (output row, contracted coordinate) and the
    right operand at (contracted coordinate, output column). -/
theorem matmul_zero_apply {M K N : ℕ} {φ₁ φ₂ : FTy}
    (D : DotDims ⟨2, ![M, K]⟩ ⟨2, ![K, N]⟩ ⟨2, ![M, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![M, K]⟩ φ₁) (rhs : FVec Ideal ⟨2, ![K, N]⟩ φ₂) (p : Fin M) (e : Fin N) :
    matmul D none lhs rhs (constant (F := Ideal) ⟨2, ![M, N]⟩ .f32 0x00000000#32) (ix2 p e)
      = ∑ k : Fin K, lhs (ix2 p k) * rhs (ix2 k e) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p e) ((contrEquiv1 D K hr hs).symm k) = ix2 p k := funext fun a => Fin.ext (by
    match a with
    | ⟨0, _⟩ => exact hl0 _ _
    | ⟨1, _⟩ => exact (hl1 _ _).trans hk)
  have er : D.rhsIdx (ix2 p e) ((contrEquiv1 D K hr hs).symm k) = ix2 k e := funext fun a => Fin.ext (by
    match a with
    | ⟨0, _⟩ => exact (hr0 _ _).trans hk
    | ⟨1, _⟩ => exact hr1 _ _)
  rw [el, er]

end Cert.LibPlainDot

end
-- ==== Proof.Region0.lean ====
/-
  The first matrix product, block by block.

  The region runs over ten grid points. At point `t` it multiplies rows `10000·t … 10000·t + 9999` of the node features
  `X` (a 10000 × 64 block) by the whole 64 × 64 weight matrix, accumulating from zero, and writes the 10000 × 64 result back
  as rows `10000·t …` of the output. The two narrowings to bf16 are the identity on extended reals. So entry `(r, e)` of the
  output array is `∑ₖ X (r, k) · W (k, e)` — the host's contraction of the two whole arrays — and the ten blocks tile all
  100000 rows.
-/
import proofs.«142502_j55628416418157_1_alg».proof.Defs
import proofs.«142502_j55628416418157_1_alg».proof.Proof.Gen.KernelIdeal.Frame
import proofs.«142502_j55628416418157_1_alg».proof.Proof.Gen.ReferenceIdeal.Read
import proofs.«142502_j55628416418157_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

theorem zeroOffsets : (![0, 0] : Fin 2 → Nat) = fun _ => 0 := funext fun a => by fin_cases a <;> rfl

/-! ## One block's product at an entry -/

private abbrev D0 := dot_S10000x64_S64x64_S10000x64_1_0_0_1_n_n

theorem D0_lhs0 (i : S10000x64.Idx) (q : D0.contr.Idx) : (D0.lhsIdx i q 0).val = (i 0).val := by
  unfold DotDims.lhsIdx
  rw [dif_neg (show ¬(0 : Fin S10000x64.rank) ∈ D0.lhsBatch by decide), dif_pos (show (0 : Fin S10000x64.rank) ∈ D0.lhsNonContracting by decide)]
  rfl
theorem D0_lhs1 (i : S10000x64.Idx) (q : D0.contr.Idx) : (D0.lhsIdx i q 1).val = (q ⟨0, by decide⟩).val :=
  D0.lhsIdx_val_of_single rfl i q
theorem D0_rhs0 (i : S10000x64.Idx) (q : D0.contr.Idx) : (D0.rhsIdx i q 0).val = (q ⟨0, by decide⟩).val :=
  D0.rhsIdx_val_of_single rfl i q
theorem D0_rhs1 (i : S10000x64.Idx) (q : D0.contr.Idx) : (D0.rhsIdx i q 1).val = (i 1).val := by
  unfold DotDims.rhsIdx
  rw [dif_neg (show ¬(1 : Fin S64x64.rank) ∈ D0.rhsBatch by decide), dif_pos (show (1 : Fin S64x64.rank) ∈ D0.rhsNonContracting by decide)]
  rfl

/-- The block product at `(p, e)`: the sum over the 64 contracted coordinates. -/
theorem blockProduct0_apply (x0 : Vec Ideal S10000x64 .f32) (x1 : Vec Ideal S64x64 .f32) (p : Fin 10000) (e : Fin 64) :
    k0_pay1 x0 x1 (ix2 p e) = ∑ k : Fin 64, x0 (ix2 p k) * x1 (ix2 k e) := by
  unfold k0_pay1
  exact Cert.LibPlainDot.matmul_zero_apply D0 rfl rfl D0_lhs0 D0_lhs1 D0_rhs0 D0_rhs1
    (truncf .bf16 x0 bitsLt_bf16_f32) (truncf .bf16 x1 bitsLt_bf16_f32) p e

/-! ## The printed index maps, decided over the ten grid points -/

/-- At point `t` the feature window and the output window are at block row `t`, the weight window at its one block. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The feature block at point `t` is rows `10000·t …` of the feature array. -/
theorem rows0_apply (c : Dev nD) (t : Fin cfg0.N) (y : S10000x64.Idx) (i : S100000x64.Idx)
    (h0 : (i 0).val = t.val * 10000 + (y 0).val) (h1 : (i 1).val = (y 1).val) :
    (iblk0 V c 0 t : Vec Ideal S10000x64 .f32) y = (V c main_arg0 : S100000x64.Idx → Elt Ideal .f32) i := by
  obtain ⟨e0, e1, -⟩ := blockIdx0 t
  unfold iblk0
  rw [View.read_apply]
  show V c main_arg0 _ = V c main_arg0 _
  congr 1
  funext a
  apply Fin.ext
  match a with
  | ⟨0, _⟩ => show win0_0.index t (0 : Fin 2) * 10000 + 1 * (y 0).val = (i 0).val; rw [e0, h0]; omega
  | ⟨1, _⟩ => show win0_0.index t (1 : Fin 2) * 64 + 1 * (y 1).val = (i 1).val; rw [e1, h1]; omega

/-- The weight block at every point is the whole weight array. -/
theorem weights0_apply (c : Dev nD) (t : Fin cfg0.N) (y : S64x64.Idx) (i : S64x64.Idx)
    (h0 : (i 0).val = (y 0).val) (h1 : (i 1).val = (y 1).val) :
    (iblk0 V c 1 t : Vec Ideal S64x64 .f32) y = (V c main_arg3 : S64x64.Idx → Elt Ideal .f32) i := by
  obtain ⟨-, -, e2, e3, -⟩ := blockIdx0 t
  unfold iblk0
  rw [View.read_apply]
  show V c main_arg3 _ = V c main_arg3 _
  congr 1
  funext a
  apply Fin.ext
  match a with
  | ⟨0, _⟩ => show win0_1.index t (0 : Fin 2) * 64 + 1 * (y 0).val = (i 0).val; rw [e2, h0]; omega
  | ⟨1, _⟩ => show win0_1.index t (1 : Fin 2) * 64 + 1 * (y 1).val = (i 1).val; rw [e3, h1]; omega

/-! ## What a point writes back, the cover, the array -/

/-- Point `t` writes back block `t` of the contraction of the two whole arrays. -/
theorem flushed0 (c : Dev nD) (t : Fin cfg0.N) :
    (dat0 V c).flushed 2 t = ((cfg0.win 2).blk t).view.read (Elt Ideal)
      (Cert.ReferenceIdeal.Read.val_main_v32 (F := Ideal) (V c main_arg0) (V c main_arg3)) := by
  show (cfg0.win 2).cut (grid0.coords t) ((dat0 V c).after 2 t) = _
  rw [after0_2]
  unfold out0_2
  rw [View.canon_unit_zero zeroOffsets]
  simp only [View.ld_unit_zero (S := S10000x64) zeroOffsets, View.ld_unit_zero (S := S64x64) zeroOffsets]
  obtain ⟨-, -, -, -, e4, e5⟩ := blockIdx0 t
  funext j
  obtain ⟨p, e, rfl⟩ : ∃ (p : Fin 10000) (e : Fin 64), j = ix2 p e := ⟨j 0, j 1, eq_ix2 j⟩
  show k0_pay1 (iblk0 V c 0 t) (iblk0 V c 1 t) (ix2 p e)
    = Cert.ReferenceIdeal.Read.val_main_v32 (F := Ideal) (V c main_arg0) (V c main_arg3) (((cfg0.win 2).blk t).view.emb (ix2 p e))
  rw [Cert.ReferenceIdeal.Read.val_main_v32_apply]
  refine (blockProduct0_apply (iblk0 V c 0 t) (iblk0 V c 1 t) p e).trans ?_
  refine Finset.sum_congr rfl fun k _ => ?_
  congr 1
  · refine rows0_apply V c t (ix2 p k) _ ?_ rfl
    show win0_2.index t (0 : Fin 2) * 10000 + 1 * p.val = t.val * 10000 + p.val
    rw [e4]; omega
  · refine weights0_apply V c t (ix2 k e) _ rfl ?_
    show win0_2.index t (1 : Fin 2) * 64 + 1 * e.val = e.val
    rw [e5]; omega

/-- An index of the output array is in point `t`'s block iff each coordinate is in the block's range. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- Row `r` of the output is in the block of point `r / 10000`. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  have ht : (i 0).val / 10000 < cfg0.N := by show (i 0).val / 10000 < grid0.N; rw [hN]; omega
  obtain ⟨-, -, -, -, e4, e5⟩ := blockIdx0 ⟨(i 0).val / 10000, ht⟩
  refine ⟨⟨(i 0).val / 10000, ht⟩, flush0_2 _, ?_⟩
  rw [mem_blk0]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 64 ≤ (i 1).val ∧ (i 1).val < win0_2.index ⟨(i 0).val / 10000, ht⟩ (1 : Fin 2) * 64 + 64
    rw [e5]; omega

/-- The region's output array, whatever the contents it is entered with: the host's contraction of its two input arrays. -/
theorem array0 (c : Dev nD) :
    (dat0 V c).arrAt 2 cfg0.N = Cert.ReferenceIdeal.Read.val_main_v32 (F := Ideal) (V c main_arg0) (V c main_arg3) :=
  (dat0 V c).arrAt_eq_of_cover 2 _ (fun t _ => flushed0 V c t) cover0

end Cert.KernelIdeal.Hand

end
-- ==== Proof.Region1.lean ====
/-
  The bias and relu stage, block by block.

  The region runs over ten grid points. At point `t` it takes rows `10000·t … 10000·t + 9999` of its input array (a
  10000 × 64 block) and the one row of 64 biases, adds the bias row to every row of the block and takes the maximum with zero,
  and writes the result back as rows `10000·t …` of the output. So entry `(r, e)` of the output array is
  `max (A (r, e) + b (0, e)) 0`: the host's row broadcast of the biases added to the whole array, then its maximum with the zero array. The ten
  blocks tile all 100000 rows.
-/
import proofs.«142502_j55628416418157_1_alg».proof.Defs
import proofs.«142502_j55628416418157_1_alg».proof.Proof.Gen.KernelIdeal.Frame
import proofs.«142502_j55628416418157_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

theorem zeroOffsets1 : (![0, 0] : Fin 2 → Nat) = fun _ => 0 := funext fun a => by fin_cases a <;> rfl

/-- The stage on whole arrays, in the host's operations: the bias row broadcast over all rows and added, then the maximum with zero. -/
def biasReluArray (A : FVec Ideal Cert.ReferenceIdeal.S100000x64 .f32) (B : FVec Ideal Cert.ReferenceIdeal.S1x64 .f32) : FVec Ideal Cert.ReferenceIdeal.S100000x64 .f32 :=
  maximumf (addf A (broadcastInDim Cert.ReferenceIdeal.S100000x64 ![0, 1] Cert.ReferenceIdeal.Gen.bcast_S1x64_S100000x64_0_1 B)) (Cert.ReferenceIdeal.Read.val_main_call1_v0 (F := Ideal))

/-- The host's row broadcast read at an entry: the one row at the entry's column. -/
theorem rowBroadcast1_apply (B : FVec Ideal Cert.ReferenceIdeal.S1x64 .f32) (i : Cert.ReferenceIdeal.S100000x64.Idx) :
    broadcastInDim Cert.ReferenceIdeal.S100000x64 ![0, 1] Cert.ReferenceIdeal.Gen.bcast_S1x64_S100000x64_0_1 B i = B (Cert.ReferenceIdeal.Read.idx_main_v47 i) :=
  broadcastInDim_apply _ Cert.ReferenceIdeal.Gen.bcast_S1x64_S100000x64_0_1 B i (Cert.ReferenceIdeal.Read.idx_main_v47 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

/-- The stage on whole arrays at an entry. -/
theorem biasReluArray_apply (A : FVec Ideal Cert.ReferenceIdeal.S100000x64 .f32) (B : FVec Ideal Cert.ReferenceIdeal.S1x64 .f32) (i : Cert.ReferenceIdeal.S100000x64.Idx) :
    biasReluArray A B i = max (A i + B (Cert.ReferenceIdeal.Read.idx_main_v47 i)) (Ideal.ofBits .f32 0x00000000#32) := by
  unfold biasReluArray
  rw [maximumf_apply, addf_apply, rowBroadcast1_apply, Cert.ReferenceIdeal.Read.val_main_call1_v0_apply, Cert.ReferenceIdeal.Read.val_main_call1_cst_apply]
  rfl

/-! ## One block's stage at an entry -/

/-- The block's result at `(p, e)`. -/
theorem block1_apply (x0 : Vec Ideal S10000x64 .f32) (x1 : Vec Ideal S1x64 .f32) (p : Fin 10000) (e : Fin 64) :
    k1_pay1 x0 x1 (ix2 p e) = max (x0 (ix2 p e) + x1 (ix2 (0 : Fin 1) e)) (Scalar.ofBits (F := Ideal) .f32 0x00000000#32) := by
  unfold k1_pay1
  simp only [shapeCast_self]
  rw [maximumf_apply, addf_apply, broadcastTo_1b_ab_apply]
  rfl

/-! ## The printed index maps, decided over the ten grid points -/

theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- The input block at point `t` is rows `10000·t …` of the input array. -/
theorem rows1_apply (c : Dev nD) (t : Fin cfg1.N) (y : S10000x64.Idx) (i : S100000x64.Idx)
    (h0 : (i 0).val = t.val * 10000 + (y 0).val) (h1 : (i 1).val = (y 1).val) :
    (iblk1 V c 0 t : Vec Ideal S10000x64 .f32) y = (V c main_v45 : S100000x64.Idx → Elt Ideal .f32) i := by
  obtain ⟨e0, e1, -⟩ := blockIdx1 t
  unfold iblk1
  rw [View.read_apply]
  show V c main_v45 _ = V c main_v45 _
  congr 1
  funext a
  apply Fin.ext
  match a with
  | ⟨0, _⟩ => show win1_0.index t (0 : Fin 2) * 10000 + 1 * (y 0).val = (i 0).val; rw [e0, h0]; omega
  | ⟨1, _⟩ => show win1_0.index t (1 : Fin 2) * 64 + 1 * (y 1).val = (i 1).val; rw [e1, h1]; omega

/-- The bias block at every point is the whole one-row bias array. -/
theorem biasRow1_apply (c : Dev nD) (t : Fin cfg1.N) (y : S1x64.Idx) (i : S1x64.Idx)
    (h0 : (i 0).val = (y 0).val) (h1 : (i 1).val = (y 1).val) :
    (iblk1 V c 1 t : Vec Ideal S1x64 .f32) y = (V c main_v46 : S1x64.Idx → Elt Ideal .f32) i := by
  obtain ⟨-, -, e2, e3, -⟩ := blockIdx1 t
  unfold iblk1
  rw [View.read_apply]
  show V c main_v46 _ = V c main_v46 _
  congr 1
  funext a
  apply Fin.ext
  match a with
  | ⟨0, _⟩ => show win1_1.index t (0 : Fin 2) * 1 + 1 * (y 0).val = (i 0).val; rw [e2, h0]; omega
  | ⟨1, _⟩ => show win1_1.index t (1 : Fin 2) * 64 + 1 * (y 1).val = (i 1).val; rw [e3, h1]; omega

/-! ## What a point writes back, the cover, the array -/

/-- Point `t` writes back block `t` of the stage applied to the two whole arrays. -/
theorem flushed1 (c : Dev nD) (t : Fin cfg1.N) :
    (dat1 V c).flushed 2 t = ((cfg1.win 2).blk t).view.read (Elt Ideal) (biasReluArray (V c main_v45) (V c main_v46)) := by
  show (cfg1.win 2).cut (grid1.coords t) ((dat1 V c).after 2 t) = _
  rw [after1_2]
  unfold out1_2
  rw [View.canon_unit_zero zeroOffsets1]
  simp only [View.ld_unit_zero (S := S10000x64) zeroOffsets1, View.ld_unit_zero (S := S1x64) zeroOffsets1]
  obtain ⟨-, -, -, -, e4, e5⟩ := blockIdx1 t
  funext j
  obtain ⟨p, e, rfl⟩ : ∃ (p : Fin 10000) (e : Fin 64), j = ix2 p e := ⟨j 0, j 1, eq_ix2 j⟩
  show k1_pay1 (iblk1 V c 0 t) (iblk1 V c 1 t) (ix2 p e)
    = biasReluArray (V c main_v45) (V c main_v46) (((cfg1.win 2).blk t).view.emb (ix2 p e))
  rw [biasReluArray_apply]
  refine (block1_apply (iblk1 V c 0 t) (iblk1 V c 1 t) p e).trans ?_
  have hA := rows1_apply V c t (ix2 p e) (((cfg1.win 2).blk t).view.emb (ix2 p e))
    (by show win1_2.index t (0 : Fin 2) * 10000 + 1 * p.val = t.val * 10000 + p.val; rw [e4]; omega)
    (by show win1_2.index t (1 : Fin 2) * 64 + 1 * e.val = e.val; rw [e5]; omega)
  have hB := biasRow1_apply V c t (ix2 (0 : Fin 1) e) (Cert.ReferenceIdeal.Read.idx_main_v47 (((cfg1.win 2).blk t).view.emb (ix2 p e))) rfl
    (by show win1_2.index t (1 : Fin 2) * 64 + 1 * e.val = e.val; rw [e5]; omega)
  rw [hA, hB]
  rfl

/-- An index of the output array is in point `t`'s block iff each coordinate is in the block's range. -/
theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v47).slice (win1_2.rect t)).set ↔ _
  rw [View.set_slice_whole, Rect.mem_set_unit]
  exact Iff.rfl

/-- Row `r` of the output is in the block of point `r / 10000`. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : grid1.N = 10 := N_1
  have ht : (i 0).val / 10000 < cfg1.N := by show (i 0).val / 10000 < grid1.N; rw [hN]; omega
  obtain ⟨-, -, -, -, e4, e5⟩ := blockIdx1 ⟨(i 0).val / 10000, ht⟩
  refine ⟨⟨(i 0).val / 10000, ht⟩, flush1_2 _, ?_⟩
  rw [mem_blk1]
  intro a
  match a with
  | ⟨0, _⟩ =>
    show win1_2.index ⟨(i 0).val / 10000, ht⟩ (0 : Fin 2) * 10000 ≤ (i 0).val ∧ (i 0).val < win1_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, ht⟩ (1 : Fin 2) * 64 ≤ (i 1).val ∧ (i 1).val < win1_2.index ⟨(i 0).val / 10000, ht⟩ (1 : Fin 2) * 64 + 64
    rw [e5]; omega

/-- The region's output array, whatever the contents it is entered with: the stage applied to its two input arrays. -/
theorem array1 (c : Dev nD) :
    (dat1 V c).arrAt 2 cfg1.N = biasReluArray (V c main_v45) (V c main_v46) :=
  (dat1 V c).arrAt_eq_of_cover 2 _ (fun t _ => flushed1 V c t) cover1

end Cert.KernelIdeal.Hand

end
-- ==== Proof.Region2.lean ====
/-
  The second matrix product, block by block.

  The region runs over ten grid points. At point `t` it multiplies rows `10000·t … 10000·t + 9999` of the hidden features
  `H` (a 10000 × 64 block) by the whole 64 × 32 weight matrix, accumulating from zero, and writes the 10000 × 32 result
  back as rows `10000·t …` of the output. The narrowings to bf16 are the identity on extended reals. So entry `(r, e)` of the
  output array is `∑ₖ H (r, k) · W (k, e)` — the host's contraction of the two whole arrays — and the ten blocks tile all
  100000 rows.
-/
import proofs.«142502_j55628416418157_1_alg».proof.Defs
import proofs.«142502_j55628416418157_1_alg».proof.Proof.Gen.KernelIdeal.Frame
import proofs.«142502_j55628416418157_1_alg».proof.Proof.Gen.ReferenceIdeal.Read
import proofs.«142502_j55628416418157_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

theorem zeroOffsets2 : (![0, 0] : Fin 2 → Nat) = fun _ => 0 := funext fun a => by fin_cases a <;> rfl

/-! ## The host's contraction of two whole arrays, at an entry -/

/-- The contraction of a 100000 × 64 array with a 64 × 32 array, in the host's operation. -/
def product2Array (A : FVec Ideal Cert.ReferenceIdeal.S100000x64 .f32) (W : FVec Ideal Cert.ReferenceIdeal.S64x32 .f32) : FVec Ideal Cert.ReferenceIdeal.S100000x32 .f32 :=
  Host.dotGeneral (F := Ideal) Cert.ReferenceIdeal.dot_S100000x64_S64x32_S100000x32_1_0_0_1_n_n none A W

/-- Its entry `i`: the sum over the 64 contracted coordinates of the left operand's row entry times the right operand's
    column entry. -/
theorem product2Array_apply (A : FVec Ideal Cert.ReferenceIdeal.S100000x64 .f32) (W : FVec Ideal Cert.ReferenceIdeal.S64x32 .f32) (i : Cert.ReferenceIdeal.S100000x32.Idx) :
    product2Array A W i = ∑ k : Fin 64, A (Cert.ReferenceIdeal.Read.lidx_main_v78 i k) * W (Cert.ReferenceIdeal.Read.ridx_main_v78 i k) := by
  unfold product2Array
  simp only [Host.dotGeneral]
  rw [Ideal.dotGeneral_apply, ← Equiv.sum_comp (ValueIdx.contrEquiv1 Cert.ReferenceIdeal.dot_S100000x64_S64x32_S100000x32_1_0_0_1_n_n 64 rfl rfl).symm]
  refine Finset.sum_congr rfl fun k _ => ?_
  have hk := ValueIdx.contrEquiv1_symm_val Cert.ReferenceIdeal.dot_S100000x64_S64x32_S100000x32_1_0_0_1_n_n 64 rfl rfl k
  have el : (Cert.ReferenceIdeal.dot_S100000x64_S64x32_S100000x32_1_0_0_1_n_n).lhsIdx i ((ValueIdx.contrEquiv1 Cert.ReferenceIdeal.dot_S100000x64_S64x32_S100000x32_1_0_0_1_n_n 64 rfl rfl).symm k) = Cert.ReferenceIdeal.Read.lidx_main_v78 i k := funext fun a => Fin.ext (by
    match a with
    | ⟨0, _⟩ => exact Cert.ReferenceIdeal.Read.lhs_main_v78_0 _ _
    | ⟨1, _⟩ => exact (Cert.ReferenceIdeal.Read.lhs_main_v78_1 _ _).trans hk)
  have er : (Cert.ReferenceIdeal.dot_S100000x64_S64x32_S100000x32_1_0_0_1_n_n).rhsIdx i ((ValueIdx.contrEquiv1 Cert.ReferenceIdeal.dot_S100000x64_S64x32_S100000x32_1_0_0_1_n_n 64 rfl rfl).symm k) = Cert.ReferenceIdeal.Read.ridx_main_v78 i k := funext fun a => Fin.ext (by
    match a with
    | ⟨0, _⟩ => exact (Cert.ReferenceIdeal.Read.rhs_main_v78_0 _ _).trans hk
    | ⟨1, _⟩ => exact Cert.ReferenceIdeal.Read.rhs_main_v78_1 _ _)
  rw [el, er]

/-! ## One block's product at an entry -/

private abbrev D2 := dot_S10000x64_S64x32_S10000x32_1_0_0_1_n_n

theorem D2_lhs0 (i : S10000x32.Idx) (q : D2.contr.Idx) : (D2.lhsIdx i q 0).val = (i 0).val := by
  unfold DotDims.lhsIdx
  rw [dif_neg (show ¬(0 : Fin S10000x64.rank) ∈ D2.lhsBatch by decide), dif_pos (show (0 : Fin S10000x64.rank) ∈ D2.lhsNonContracting by decide)]
  rfl
theorem D2_lhs1 (i : S10000x32.Idx) (q : D2.contr.Idx) : (D2.lhsIdx i q 1).val = (q ⟨0, by decide⟩).val :=
  D2.lhsIdx_val_of_single rfl i q
theorem D2_rhs0 (i : S10000x32.Idx) (q : D2.contr.Idx) : (D2.rhsIdx i q 0).val = (q ⟨0, by decide⟩).val :=
  D2.rhsIdx_val_of_single rfl i q
theorem D2_rhs1 (i : S10000x32.Idx) (q : D2.contr.Idx) : (D2.rhsIdx i q 1).val = (i 1).val := by
  unfold DotDims.rhsIdx
  rw [dif_neg (show ¬(1 : Fin S64x32.rank) ∈ D2.rhsBatch by decide), dif_pos (show (1 : Fin S64x32.rank) ∈ D2.rhsNonContracting by decide)]
  rfl

/-- The block product at `(p, e)`: the sum over the 64 contracted coordinates. -/
theorem blockProduct2_apply (x0 : Vec Ideal S10000x64 .f32) (x1 : Vec Ideal S64x32 .f32) (p : Fin 10000) (e : Fin 32) :
    k2_pay1 x0 x1 (ix2 p e) = ∑ k : Fin 64, x0 (ix2 p k) * x1 (ix2 k e) := by
  unfold k2_pay1
  simp only [shapeCast_self]
  exact Cert.LibPlainDot.matmul_zero_apply D2 rfl rfl D2_lhs0 D2_lhs1 D2_rhs0 D2_rhs1
    (truncf .bf16 x0 bitsLt_bf16_f32) (truncf .bf16 x1 bitsLt_bf16_f32) p e

/-! ## The printed index maps, decided over the ten grid points -/

theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- The left block at point `t` is rows `10000·t …` of the left array. -/
theorem rows2_apply (c : Dev nD) (t : Fin cfg2.N) (y : S10000x64.Idx) (i : S100000x64.Idx)
    (h0 : (i 0).val = t.val * 10000 + (y 0).val) (h1 : (i 1).val = (y 1).val) :
    (iblk2 V c 0 t : Vec Ideal S10000x64 .f32) y = (V c main_v47 : S100000x64.Idx → Elt Ideal .f32) i := by
  obtain ⟨e0, e1, -⟩ := blockIdx2 t
  unfold iblk2
  rw [View.read_apply]
  show V c main_v47 _ = V c main_v47 _
  congr 1
  funext a
  apply Fin.ext
  match a with
  | ⟨0, _⟩ => show win2_0.index t (0 : Fin 2) * 10000 + 1 * (y 0).val = (i 0).val; rw [e0, h0]; omega
  | ⟨1, _⟩ => show win2_0.index t (1 : Fin 2) * 64 + 1 * (y 1).val = (i 1).val; rw [e1, h1]; omega

/-- The weight block at every point is the whole weight array. -/
theorem weights2_apply (c : Dev nD) (t : Fin cfg2.N) (y : S64x32.Idx) (i : S64x32.Idx)
    (h0 : (i 0).val = (y 0).val) (h1 : (i 1).val = (y 1).val) :
    (iblk2 V c 1 t : Vec Ideal S64x32 .f32) y = (V c main_arg5 : S64x32.Idx → Elt Ideal .f32) i := by
  obtain ⟨-, -, e2, e3, -⟩ := blockIdx2 t
  unfold iblk2
  rw [View.read_apply]
  show V c main_arg5 _ = V c main_arg5 _
  congr 1
  funext a
  apply Fin.ext
  match a with
  | ⟨0, _⟩ => show win2_1.index t (0 : Fin 2) * 64 + 1 * (y 0).val = (i 0).val; rw [e2, h0]; omega
  | ⟨1, _⟩ => show win2_1.index t (1 : Fin 2) * 32 + 1 * (y 1).val = (i 1).val; rw [e3, h1]; omega

/-! ## What a point writes back, the cover, the array -/

/-- Point `t` writes back block `t` of the contraction of the two whole arrays. -/
theorem flushed2 (c : Dev nD) (t : Fin cfg2.N) :
    (dat2 V c).flushed 2 t = ((cfg2.win 2).blk t).view.read (Elt Ideal) (product2Array (V c main_v47) (V c main_arg5)) := by
  show (cfg2.win 2).cut (grid2.coords t) ((dat2 V c).after 2 t) = _
  rw [after2_2]
  unfold out2_2
  rw [View.canon_unit_zero zeroOffsets2]
  simp only [View.ld_unit_zero (S := S10000x64) zeroOffsets2, View.ld_unit_zero (S := S64x32) zeroOffsets2]
  obtain ⟨-, -, -, -, e4, e5⟩ := blockIdx2 t
  funext j
  obtain ⟨p, e, rfl⟩ : ∃ (p : Fin 10000) (e : Fin 32), j = ix2 p e := ⟨j 0, j 1, eq_ix2 j⟩
  show k2_pay1 (iblk2 V c 0 t) (iblk2 V c 1 t) (ix2 p e)
    = product2Array (V c main_v47) (V c main_arg5) (((cfg2.win 2).blk t).view.emb (ix2 p e))
  rw [product2Array_apply]
  refine (blockProduct2_apply (iblk2 V c 0 t) (iblk2 V c 1 t) p e).trans ?_
  refine Finset.sum_congr rfl fun k _ => ?_
  congr 1
  · refine rows2_apply V c t (ix2 p k) _ ?_ rfl
    show win2_2.index t (0 : Fin 2) * 10000 + 1 * p.val = t.val * 10000 + p.val
    rw [e4]; omega
  · refine weights2_apply V c t (ix2 k e) _ rfl ?_
    show win2_2.index t (1 : Fin 2) * 32 + 1 * e.val = e.val
    rw [e5]; omega

/-- An index of the output array is in point `t`'s block iff each coordinate is in the block's range. -/
theorem mem_blk2 (t : Fin cfg2.N) (i : S100000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v48).slice (win2_2.rect t)).set ↔ _
  rw [View.set_slice_whole, Rect.mem_set_unit]
  exact Iff.rfl

/-- Row `r` of the output is in the block of point `r / 10000`. -/
theorem cover2 (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  have hN : grid2.N = 10 := N_2
  have ht : (i 0).val / 10000 < cfg2.N := by show (i 0).val / 10000 < grid2.N; rw [hN]; omega
  obtain ⟨-, -, -, -, e4, e5⟩ := blockIdx2 ⟨(i 0).val / 10000, ht⟩
  refine ⟨⟨(i 0).val / 10000, ht⟩, flush2_2 _, ?_⟩
  rw [mem_blk2]
  intro a
  match a with
  | ⟨0, _⟩ =>
    show win2_2.index ⟨(i 0).val / 10000, ht⟩ (0 : Fin 2) * 10000 ≤ (i 0).val ∧ (i 0).val < win2_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, ht⟩ (1 : Fin 2) * 32 ≤ (i 1).val ∧ (i 1).val < win2_2.index ⟨(i 0).val / 10000, ht⟩ (1 : Fin 2) * 32 + 32
    rw [e5]; omega

/-- The region's output array, whatever the contents it is entered with: the host's contraction of its two input arrays. -/
theorem array2 (c : Dev nD) :
    (dat2 V c).arrAt 2 cfg2.N = product2Array (V c main_v47) (V c main_arg5) :=
  (dat2 V c).arrAt_eq_of_cover 2 _ (fun t _ => flushed2 V c t) cover2

end Cert.KernelIdeal.Hand

end
-- ==== Proof.Region3.lean ====
/-
  The bias stage, block by block.

  The region runs over ten grid points. At point `t` it takes rows `10000·t … 10000·t + 9999` of its input array (a
  10000 × 32 block) and the one row of 32 biases, adds the bias row to every row of the block,
  and writes the result back as rows `10000·t …` of the output. So entry `(r, e)` of the output array is
  `A (r, e) + b (0, e)`: the host's row broadcast of the biases added to the whole array. The ten
  blocks tile all 100000 rows.
-/
import proofs.«142502_j55628416418157_1_alg».proof.Defs
import proofs.«142502_j55628416418157_1_alg».proof.Proof.Gen.KernelIdeal.Frame
import proofs.«142502_j55628416418157_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

theorem zeroOffsets3 : (![0, 0] : Fin 2 → Nat) = fun _ => 0 := funext fun a => by fin_cases a <;> rfl

/-- The stage on whole arrays, in the host's operations: the bias row broadcast over all rows and added. -/
def biasAddArray (A : FVec Ideal Cert.ReferenceIdeal.S100000x32 .f32) (B : FVec Ideal Cert.ReferenceIdeal.S1x32 .f32) : FVec Ideal Cert.ReferenceIdeal.S100000x32 .f32 :=
  addf A (broadcastInDim Cert.ReferenceIdeal.S100000x32 ![0, 1] Cert.ReferenceIdeal.Gen.bcast_S1x32_S100000x32_0_1 B)

/-- The host's row broadcast read at an entry: the one row at the entry's column. -/
theorem rowBroadcast3_apply (B : FVec Ideal Cert.ReferenceIdeal.S1x32 .f32) (i : Cert.ReferenceIdeal.S100000x32.Idx) :
    broadcastInDim Cert.ReferenceIdeal.S100000x32 ![0, 1] Cert.ReferenceIdeal.Gen.bcast_S1x32_S100000x32_0_1 B i = B (Cert.ReferenceIdeal.Read.idx_main_v93 i) :=
  broadcastInDim_apply _ Cert.ReferenceIdeal.Gen.bcast_S1x32_S100000x32_0_1 B i (Cert.ReferenceIdeal.Read.idx_main_v93 i) (fun a => match a with
    | ⟨0, _⟩ => by show 0 = if (1 : Nat) = 1 then 0 else (i 0).val; rw [if_pos rfl]
    | ⟨1, _⟩ => by show (i 1).val = if (32 : Nat) = 1 then 0 else (i 1).val; rw [if_neg (by decide)])

/-- The stage on whole arrays at an entry. -/
theorem biasAddArray_apply (A : FVec Ideal Cert.ReferenceIdeal.S100000x32 .f32) (B : FVec Ideal Cert.ReferenceIdeal.S1x32 .f32) (i : Cert.ReferenceIdeal.S100000x32.Idx) :
    biasAddArray A B i = A i + B (Cert.ReferenceIdeal.Read.idx_main_v93 i) := by
  unfold biasAddArray
  rw [addf_apply, rowBroadcast3_apply]

/-! ## One block's stage at an entry -/

/-- The block's result at `(p, e)`. -/
theorem block3_apply (x0 : Vec Ideal S10000x32 .f32) (x1 : Vec Ideal S1x32 .f32) (p : Fin 10000) (e : Fin 32) :
    k3_pay1 x0 x1 (ix2 p e) = x0 (ix2 p e) + x1 (ix2 (0 : Fin 1) e) := by
  unfold k3_pay1
  simp only [shapeCast_self]
  rw [addf_apply, broadcastTo_1b_ab_apply]

/-! ## The printed index maps, decided over the ten grid points -/

theorem blockIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- The input block at point `t` is rows `10000·t …` of the input array. -/
theorem rows3_apply (c : Dev nD) (t : Fin cfg3.N) (y : S10000x32.Idx) (i : S100000x32.Idx)
    (h0 : (i 0).val = t.val * 10000 + (y 0).val) (h1 : (i 1).val = (y 1).val) :
    (iblk3 V c 0 t : Vec Ideal S10000x32 .f32) y = (V c main_v61 : S100000x32.Idx → Elt Ideal .f32) i := by
  obtain ⟨e0, e1, -⟩ := blockIdx3 t
  unfold iblk3
  rw [View.read_apply]
  show V c main_v61 _ = V c main_v61 _
  congr 1
  funext a
  apply Fin.ext
  match a with
  | ⟨0, _⟩ => show win3_0.index t (0 : Fin 2) * 10000 + 1 * (y 0).val = (i 0).val; rw [e0, h0]; omega
  | ⟨1, _⟩ => show win3_0.index t (1 : Fin 2) * 32 + 1 * (y 1).val = (i 1).val; rw [e1, h1]; omega

/-- The bias block at every point is the whole one-row bias array. -/
theorem biasRow3_apply (c : Dev nD) (t : Fin cfg3.N) (y : S1x32.Idx) (i : S1x32.Idx)
    (h0 : (i 0).val = (y 0).val) (h1 : (i 1).val = (y 1).val) :
    (iblk3 V c 1 t : Vec Ideal S1x32 .f32) y = (V c main_v62 : S1x32.Idx → Elt Ideal .f32) i := by
  obtain ⟨-, -, e2, e3, -⟩ := blockIdx3 t
  unfold iblk3
  rw [View.read_apply]
  show V c main_v62 _ = V c main_v62 _
  congr 1
  funext a
  apply Fin.ext
  match a with
  | ⟨0, _⟩ => show win3_1.index t (0 : Fin 2) * 1 + 1 * (y 0).val = (i 0).val; rw [e2, h0]; omega
  | ⟨1, _⟩ => show win3_1.index t (1 : Fin 2) * 32 + 1 * (y 1).val = (i 1).val; rw [e3, h1]; omega

/-! ## What a point writes back, the cover, the array -/

/-- Point `t` writes back block `t` of the stage applied to the two whole arrays. -/
theorem flushed3 (c : Dev nD) (t : Fin cfg3.N) :
    (dat3 V c).flushed 2 t = ((cfg3.win 2).blk t).view.read (Elt Ideal) (biasAddArray (V c main_v61) (V c main_v62)) := by
  show (cfg3.win 2).cut (grid3.coords t) ((dat3 V c).after 2 t) = _
  rw [after3_2]
  unfold out3_2
  rw [View.canon_unit_zero zeroOffsets3]
  simp only [View.ld_unit_zero (S := S10000x32) zeroOffsets3, View.ld_unit_zero (S := S1x32) zeroOffsets3]
  obtain ⟨-, -, -, -, e4, e5⟩ := blockIdx3 t
  funext j
  obtain ⟨p, e, rfl⟩ : ∃ (p : Fin 10000) (e : Fin 32), j = ix2 p e := ⟨j 0, j 1, eq_ix2 j⟩
  show k3_pay1 (iblk3 V c 0 t) (iblk3 V c 1 t) (ix2 p e)
    = biasAddArray (V c main_v61) (V c main_v62) (((cfg3.win 2).blk t).view.emb (ix2 p e))
  rw [biasAddArray_apply]
  refine (block3_apply (iblk3 V c 0 t) (iblk3 V c 1 t) p e).trans ?_
  have hA := rows3_apply V c t (ix2 p e) (((cfg3.win 2).blk t).view.emb (ix2 p e))
    (by show win3_2.index t (0 : Fin 2) * 10000 + 1 * p.val = t.val * 10000 + p.val; rw [e4]; omega)
    (by show win3_2.index t (1 : Fin 2) * 32 + 1 * e.val = e.val; rw [e5]; omega)
  have hB := biasRow3_apply V c t (ix2 (0 : Fin 1) e) (Cert.ReferenceIdeal.Read.idx_main_v93 (((cfg3.win 2).blk t).view.emb (ix2 p e))) rfl
    (by show win3_2.index t (1 : Fin 2) * 32 + 1 * e.val = e.val; rw [e5]; omega)
  rw [hA, hB]

/-- An index of the output array is in point `t`'s block iff each coordinate is in the block's range. -/
theorem mem_blk3 (t : Fin cfg3.N) (i : S100000x32.Idx) :
    i ∈ ((cfg3.win 2).blk t).view.set ↔ ∀ a : Fin 2, win3_2.index t a * S10000x32.size a ≤ (i a).val ∧ (i a).val < win3_2.index t a * S10000x32.size a + S10000x32.size a := by
  show i ∈ ((View.whole main_v63).slice (win3_2.rect t)).set ↔ _
  rw [View.set_slice_whole, Rect.mem_set_unit]
  exact Iff.rfl

/-- Row `r` of the output is in the block of point `r / 10000`. -/
theorem cover3 (i : S100000x32.Idx) : ∃ t : Fin cfg3.N, (cfg3.win 2).flush t = true ∧ i ∈ ((cfg3.win 2).blk t).view.set := by
  have hi0 : (i 0).val < 100000 := (i 0).isLt
  have hi1 : (i 1).val < 32 := (i 1).isLt
  have hN : grid3.N = 10 := N_3
  have ht : (i 0).val / 10000 < cfg3.N := by show (i 0).val / 10000 < grid3.N; rw [hN]; omega
  obtain ⟨-, -, -, -, e4, e5⟩ := blockIdx3 ⟨(i 0).val / 10000, ht⟩
  refine ⟨⟨(i 0).val / 10000, ht⟩, flush3_2 _, ?_⟩
  rw [mem_blk3]
  intro a
  match a with
  | ⟨0, _⟩ =>
    show win3_2.index ⟨(i 0).val / 10000, ht⟩ (0 : Fin 2) * 10000 ≤ (i 0).val ∧ (i 0).val < win3_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win3_2.index ⟨(i 0).val / 10000, ht⟩ (1 : Fin 2) * 32 ≤ (i 1).val ∧ (i 1).val < win3_2.index ⟨(i 0).val / 10000, ht⟩ (1 : Fin 2) * 32 + 32
    rw [e5]; omega

/-- The region's output array, whatever the contents it is entered with: the stage applied to its two input arrays. -/
theorem array3 (c : Dev nD) :
    (dat3 V c).arrAt 2 cfg3.N = biasAddArray (V c main_v61) (V c main_v62) :=
  (dat3 V c).arrAt_eq_of_cover 2 _ (fun t _ => flushed3 V c t) cover3

end Cert.KernelIdeal.Hand

end
-- ==== Proof.KernelStages.lean ====
/-
  The idealized kernel's buffers at every segment boundary, as the reference's stages of the arguments.

  The host stretches of the kernel are, operation for operation, the reference's: the source and destination lists with the
  self loops appended, the weights with ones appended, the degrees by an accumulating scatter, their inverse square roots
  where positive, the edge normalisation `dinv[s] · w · dinv[d]`, and per layer the gather of the transformed rows, their
  scaling by the normalisation, and the accumulating scatter into the destination rows. What differs is who computes the
  dense stages: the kernel's four regions against the host's contraction, bias broadcast and maximum. The region modules
  give each region's output array as that host operation of the region's input arrays, so the buffers meet the
  reference's stages one boundary at a time:
    entry of region 0   — sources, destinations, normalisation (reference stages 5, 6, 31);
    exit of region 0    — X·W₁ (stage 32);
    entry of region 1   — the first aggregation (stage 45) and the bias row;
    exit of region 1    — relu (aggregation + b₁) (stage 49);
    exit of region 2    — H·W₂ (stage 78);
    entry of region 3   — the second aggregation (stage 91) and the bias row;
    exit of region 3    — aggregation + b₂ (stage 94), the result.
  The reference computes the normalisation a second time for the second layer, by the same operations of the same
  arguments; it is the same array.
-/
import proofs.«142502_j55628416418157_1_alg».proof.Defs
import proofs.«142502_j55628416418157_1_alg».proof.Proof.Gen.KernelIdeal.Frame
import proofs.«142502_j55628416418157_1_alg».proof.Proof.Gen.ReferenceIdeal.Read
import proofs.«142502_j55628416418157_1_alg».proof.Proof.Region0
import proofs.«142502_j55628416418157_1_alg».proof.Proof.Region1
import proofs.«142502_j55628416418157_1_alg».proof.Proof.Region2
import proofs.«142502_j55628416418157_1_alg».proof.Proof.Region3
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Idealize.ShloMosaic.StableHlo

variable (m : (ℓ : Loc nD τ sig) → Buf (Elt Ideal) ℓ) (ρ : Dev nD → PrngReg) (c : Dev nD)

/-! ## The arguments, typed as the reference's stages take them -/

abbrev a0 : FVec Ideal Cert.ReferenceIdeal.S100000x64 .f32 := m ((c.tc : Thread nD τ).loc main_arg0)
abbrev a1 : (⟨Cert.ReferenceIdeal.S2x1600000, .i32⟩ : BufTy).Contents (Elt Ideal) := m ((c.tc : Thread nD τ).loc main_arg1)
abbrev a2 : (⟨Cert.ReferenceIdeal.S1600000, .f32⟩ : BufTy).Contents (Elt Ideal) := m ((c.tc : Thread nD τ).loc main_arg2)
abbrev a3 : (⟨Cert.ReferenceIdeal.S64x64, .f32⟩ : BufTy).Contents (Elt Ideal) := m ((c.tc : Thread nD τ).loc main_arg3)
abbrev a4 : (⟨Cert.ReferenceIdeal.S64, .f32⟩ : BufTy).Contents (Elt Ideal) := m ((c.tc : Thread nD τ).loc main_arg4)
abbrev a5 : FVec Ideal Cert.ReferenceIdeal.S64x32 .f32 := m ((c.tc : Thread nD τ).loc main_arg5)
abbrev a6 : (⟨Cert.ReferenceIdeal.S32, .f32⟩ : BufTy).Contents (Elt Ideal) := m ((c.tc : Thread nD τ).loc main_arg6)

/-! ## A bias vector reshaped to one row is the host's broadcast of it to one row -/

theorem biasRow64 (b : (⟨Cert.ReferenceIdeal.S64, .f32⟩ : BufTy).Contents (Elt Ideal)) :
    shapeCast S1x64 b shapeCasts_S64_S1x64 = Cert.ReferenceIdeal.Read.val_main_v46 (F := Ideal) b := by
  funext i
  obtain ⟨u, e, rfl⟩ : ∃ (u : Fin 1) (e : Fin 64), i = ix2 u e := ⟨i 0, i 1, eq_ix2 i⟩
  rw [shapeCast_a_1a_apply, Cert.ReferenceIdeal.Read.val_main_v46_apply]
  congr 1
  funext d
  match d with
  | ⟨0, _⟩ => rfl

theorem biasRow32 (b : (⟨Cert.ReferenceIdeal.S32, .f32⟩ : BufTy).Contents (Elt Ideal)) :
    shapeCast S1x32 b shapeCasts_S32_S1x32 = Cert.ReferenceIdeal.Read.val_main_v92 (F := Ideal) b := by
  funext i
  obtain ⟨u, e, rfl⟩ : ∃ (u : Fin 1) (e : Fin 32), i = ix2 u e := ⟨i 0, i 1, eq_ix2 i⟩
  rw [shapeCast_a_1a_apply, Cert.ReferenceIdeal.Read.val_main_v92_apply]
  congr 1
  funext d
  match d with
  | ⟨0, _⟩ => rfl

/-! ## Entry of region 0: three host stretches from the launch memory -/

theorem entry0_src : W3 m ρ c (Proc.devRef .tc main_v5) = Cert.ReferenceIdeal.Read.val_main_v5 (F := Ideal) (a1 m c) := by
  show StableHlo.after hostOps0_2 (StableHlo.after hostOps0_1 (StableHlo.after hostOps0 (W0 m ρ c))) (Proc.devRef .tc main_v5) = _
  after_results_simp <;> rfl
theorem entry0_dst : W3 m ρ c (Proc.devRef .tc main_v6) = Cert.ReferenceIdeal.Read.val_main_v6 (F := Ideal) (a1 m c) := by
  show StableHlo.after hostOps0_2 (StableHlo.after hostOps0_1 (StableHlo.after hostOps0 (W0 m ρ c))) (Proc.devRef .tc main_v6) = _
  after_results_simp <;> rfl
/-! ### The normalisation, one stretch at a time

After the first stretch: the two index lists with the self loops, the weights with the ones, the comparison of the degrees
with zero and their inverse square roots. The second stretch selects the inverse square root where the degree is positive
and zero elsewhere. The third gathers that array at the sources and at the destinations (an index below zero first moved
up by the number of nodes) and multiplies the two gathered arrays with the weights. Each stretch is read over the buffer
contents it starts from, whatever they are, given what those contents hold at the buffers it reads. -/

theorem first_src : W1 m ρ c (Proc.devRef .tc main_v5) = Cert.ReferenceIdeal.Read.val_main_v5 (F := Ideal) (a1 m c) := by
  show StableHlo.after hostOps0 (W0 m ρ c) (Proc.devRef .tc main_v5) = _
  after_results_simp <;> rfl
theorem first_dst : W1 m ρ c (Proc.devRef .tc main_v6) = Cert.ReferenceIdeal.Read.val_main_v6 (F := Ideal) (a1 m c) := by
  show StableHlo.after hostOps0 (W0 m ρ c) (Proc.devRef .tc main_v6) = _
  after_results_simp <;> rfl
theorem first_weights : W1 m ρ c (Proc.devRef .tc main_v8) = Cert.ReferenceIdeal.Read.val_main_v8 (F := Ideal) (a2 m c) := by
  show StableHlo.after hostOps0 (W0 m ρ c) (Proc.devRef .tc main_v8) = _
  after_results_simp <;> rfl
theorem first_positive : W1 m ρ c (Proc.devRef .tc main_v13) = Cert.ReferenceIdeal.Read.val_main_v13 (F := Ideal) (a1 m c) (a2 m c) := by
  show StableHlo.after hostOps0 (W0 m ρ c) (Proc.devRef .tc main_v13) = _
  after_results_simp <;> rfl
theorem first_rsqrt : W1 m ρ c (Proc.devRef .tc main_v14) = Cert.ReferenceIdeal.Read.val_main_v14 (F := Ideal) (a1 m c) (a2 m c) := by
  show StableHlo.after hostOps0 (W0 m ρ c) (Proc.devRef .tc main_v14) = _
  after_results_simp <;> rfl
theorem first_zero : W1 m ρ c (Proc.devRef .tc main_cst_2) = Cert.ReferenceIdeal.Read.val_main_cst_2 (F := Ideal) := by
  show StableHlo.after hostOps0 (W0 m ρ c) (Proc.devRef .tc main_cst_2) = _
  after_results_simp <;> rfl

/-! The operations of the called `where` function read and write their buffers through typed references; for a literal
    reference the transport of contents along its type equation is the identity. -/

theorem read_positive (h1 : main_v13.ty = (⟨S100000, .i1⟩ : BufTy)) (h2 h3) (v : main_v13.ty.Contents (Elt Ideal)) :
    (TRef.of (sig := sig) main_v13 h1 h2 h3).ofBuf v = v := cast_eq _ v
theorem read_rsqrt (h1 : main_v14.ty = (⟨S100000, .f32⟩ : BufTy)) (h2 h3) (v : main_v14.ty.Contents (Elt Ideal)) :
    (TRef.of (sig := sig) main_v14 h1 h2 h3).ofBuf v = v := cast_eq _ v
theorem read_zero (h1 : main_cst_2.ty = (⟨S_, .f32⟩ : BufTy)) (h2 h3) (v : main_cst_2.ty.Contents (Elt Ideal)) :
    (TRef.of (sig := sig) main_cst_2 h1 h2 h3).ofBuf v = v := cast_eq _ v
theorem read_zero' (h1 : main_call0_v0.ty = (⟨S_, .f32⟩ : BufTy)) (h2 h3) (v : main_call0_v0.ty.Contents (Elt Ideal)) :
    (TRef.of (sig := sig) main_call0_v0 h1 h2 h3).ofBuf v = v := cast_eq _ v
theorem write_zero' (h1 : main_call0_v0.ty = (⟨S_, .f32⟩ : BufTy)) (h2 h3) (v : (⟨S_, .f32⟩ : BufTy).Contents (Elt Ideal)) :
    (TRef.of (sig := sig) main_call0_v0 h1 h2 h3).toBuf v = v := cast_eq _ v
theorem read_zeros (h1 : main_call0_v1.ty = (⟨S100000, .f32⟩ : BufTy)) (h2 h3) (v : main_call0_v1.ty.Contents (Elt Ideal)) :
    (TRef.of (sig := sig) main_call0_v1 h1 h2 h3).ofBuf v = v := cast_eq _ v
theorem write_zeros (h1 : main_call0_v1.ty = (⟨S100000, .f32⟩ : BufTy)) (h2 h3) (v : (⟨S100000, .f32⟩ : BufTy).Contents (Elt Ideal)) :
    (TRef.of (sig := sig) main_call0_v1 h1 h2 h3).toBuf v = v := cast_eq _ v
theorem write_dinv (h1 : main_v15.ty = (⟨S100000, .f32⟩ : BufTy)) (h2 h3) (v : (⟨S100000, .f32⟩ : BufTy).Contents (Elt Ideal)) :
    (TRef.of (sig := sig) main_v15 h1 h2 h3).toBuf v = v := cast_eq _ v

/-- The second stretch: the inverse square roots where the degree is positive, zero elsewhere. -/
theorem second_dinv (V : Valuation τ sig (Elt Ideal)) (x1 : (⟨Cert.ReferenceIdeal.S2x1600000, .i32⟩ : BufTy).Contents (Elt Ideal)) (x2 : (⟨Cert.ReferenceIdeal.S1600000, .f32⟩ : BufTy).Contents (Elt Ideal))
    (h13 : V (Proc.devRef .tc main_v13) = Cert.ReferenceIdeal.Read.val_main_v13 (F := Ideal) x1 x2)
    (h14 : V (Proc.devRef .tc main_v14) = Cert.ReferenceIdeal.Read.val_main_v14 (F := Ideal) x1 x2)
    (h0 : V (Proc.devRef .tc main_cst_2) = Cert.ReferenceIdeal.Read.val_main_cst_2 (F := Ideal)) :
    StableHlo.after hostOps0_1 V (Proc.devRef .tc main_v15) = Cert.ReferenceIdeal.Read.val_main_v15 (F := Ideal) x1 x2 := by
  after_results_simp
  simp only [read_positive, read_rsqrt, read_zero, read_zero', write_zero', read_zeros, write_zeros, write_dinv]
  rw [h13, h14, h0]
  rfl
theorem second_keeps_src (V : Valuation τ sig (Elt Ideal)) : StableHlo.after hostOps0_1 V (Proc.devRef .tc main_v5) = V (Proc.devRef .tc main_v5) := by
  after_results_simp
theorem second_keeps_dst (V : Valuation τ sig (Elt Ideal)) : StableHlo.after hostOps0_1 V (Proc.devRef .tc main_v6) = V (Proc.devRef .tc main_v6) := by
  after_results_simp
theorem second_keeps_weights (V : Valuation τ sig (Elt Ideal)) : StableHlo.after hostOps0_1 V (Proc.devRef .tc main_v8) = V (Proc.devRef .tc main_v8) := by
  after_results_simp

/-- The third stretch: the edge normalisation. -/
theorem third_norm (V : Valuation τ sig (Elt Ideal)) (x1 : (⟨Cert.ReferenceIdeal.S2x1600000, .i32⟩ : BufTy).Contents (Elt Ideal)) (x2 : (⟨Cert.ReferenceIdeal.S1600000, .f32⟩ : BufTy).Contents (Elt Ideal))
    (h5 : V (Proc.devRef .tc main_v5) = Cert.ReferenceIdeal.Read.val_main_v5 (F := Ideal) x1)
    (h6 : V (Proc.devRef .tc main_v6) = Cert.ReferenceIdeal.Read.val_main_v6 (F := Ideal) x1)
    (h8 : V (Proc.devRef .tc main_v8) = Cert.ReferenceIdeal.Read.val_main_v8 (F := Ideal) x2)
    (h15 : V (Proc.devRef .tc main_v15) = Cert.ReferenceIdeal.Read.val_main_v15 (F := Ideal) x1 x2) :
    StableHlo.after hostOps0_2 V (Proc.devRef .tc main_v31) = Cert.ReferenceIdeal.Read.val_main_v31 (F := Ideal) x1 x2 := by
  after_results_simp
  rw [h5, h6, h8, h15]
  rfl

theorem entry0_norm : W3 m ρ c (Proc.devRef .tc main_v31) = Cert.ReferenceIdeal.Read.val_main_v31 (F := Ideal) (a1 m c) (a2 m c) :=
  third_norm (W2 m ρ c) (a1 m c) (a2 m c)
    ((second_keeps_src (W1 m ρ c)).trans (first_src m ρ c))
    ((second_keeps_dst (W1 m ρ c)).trans (first_dst m ρ c))
    ((second_keeps_weights (W1 m ρ c)).trans (first_weights m ρ c))
    (second_dinv (W1 m ρ c) (a1 m c) (a2 m c) (first_positive m ρ c) (first_rsqrt m ρ c) (first_zero m ρ c))
theorem entry0_arg0 : W3 m ρ c (Proc.devRef .tc main_arg0) = a0 m c := by
  show StableHlo.after hostOps0_2 (StableHlo.after hostOps0_1 (StableHlo.after hostOps0 (W0 m ρ c))) (Proc.devRef .tc main_arg0) = _
  after_results_simp <;> rfl
theorem entry0_arg3 : W3 m ρ c (Proc.devRef .tc main_arg3) = a3 m c := by
  show StableHlo.after hostOps0_2 (StableHlo.after hostOps0_1 (StableHlo.after hostOps0 (W0 m ρ c))) (Proc.devRef .tc main_arg3) = _
  after_results_simp <;> rfl
theorem entry0_arg4 : W3 m ρ c (Proc.devRef .tc main_arg4) = a4 m c := by
  show StableHlo.after hostOps0_2 (StableHlo.after hostOps0_1 (StableHlo.after hostOps0 (W0 m ρ c))) (Proc.devRef .tc main_arg4) = _
  after_results_simp <;> rfl
theorem entry0_arg5 : W3 m ρ c (Proc.devRef .tc main_arg5) = a5 m c := by
  show StableHlo.after hostOps0_2 (StableHlo.after hostOps0_1 (StableHlo.after hostOps0 (W0 m ρ c))) (Proc.devRef .tc main_arg5) = _
  after_results_simp <;> rfl
theorem entry0_arg6 : W3 m ρ c (Proc.devRef .tc main_arg6) = a6 m c := by
  show StableHlo.after hostOps0_2 (StableHlo.after hostOps0_1 (StableHlo.after hostOps0 (W0 m ρ c))) (Proc.devRef .tc main_arg6) = _
  after_results_simp <;> rfl

/-! ## Exit of region 0: the first product -/

theorem exit0_product : W4 m ρ c (Proc.devRef .tc main_v32) = Cert.ReferenceIdeal.Read.val_main_v32 (F := Ideal) (a0 m c) (a3 m c) := by
  refine (W4_arr m ρ c 2).trans ?_
  rw [array0 (V3 m ρ) c]
  show Cert.ReferenceIdeal.Read.val_main_v32 (F := Ideal) (W3 m ρ c (Proc.devRef .tc main_arg0)) (W3 m ρ c (Proc.devRef .tc main_arg3)) = _
  rw [entry0_arg0, entry0_arg3]

/-! ## Entry of region 1: the first aggregation and the bias row -/

theorem entry1_agg : W5 m ρ c (Proc.devRef .tc main_v45) = Cert.ReferenceIdeal.Read.val_main_v45 (F := Ideal) (a0 m c) (a1 m c) (a2 m c) (a3 m c) := by
  show StableHlo.after hostOps1 (W4 m ρ c) (Proc.devRef .tc main_v45) = _
  after_results_simp
  rw [exit0_product, W4_of_ne m ρ c main_v5 (by decide), W4_of_ne m ρ c main_v6 (by decide), W4_of_ne m ρ c main_v31 (by decide),
    entry0_src, entry0_dst, entry0_norm]
  rfl
theorem entry1_bias : W5 m ρ c (Proc.devRef .tc main_v46) = Cert.ReferenceIdeal.Read.val_main_v46 (F := Ideal) (a4 m c) := by
  show StableHlo.after hostOps1 (W4 m ρ c) (Proc.devRef .tc main_v46) = _
  after_results_simp
  rw [W4_of_ne m ρ c main_arg4 (by decide), entry0_arg4]
  exact biasRow64 (a4 m c)

/-! ## Exit of region 1: the hidden features -/

theorem hidden_eq (A : FVec Ideal Cert.ReferenceIdeal.S100000x64 .f32) (b : (⟨Cert.ReferenceIdeal.S64, .f32⟩ : BufTy).Contents (Elt Ideal)) :
    biasReluArray A (Cert.ReferenceIdeal.Read.val_main_v46 (F := Ideal) b)
      = maximumf (addf A (Cert.ReferenceIdeal.Read.val_main_v47 (F := Ideal) b)) (Cert.ReferenceIdeal.Read.val_main_call1_v0 (F := Ideal)) := rfl

theorem exit1_hidden : W6 m ρ c (Proc.devRef .tc main_v47) = Cert.ReferenceIdeal.Read.val_main_v49 (F := Ideal) (a0 m c) (a1 m c) (a2 m c) (a3 m c) (a4 m c) := by
  refine (W6_arr m ρ c 2).trans ?_
  rw [array1 (V5 m ρ) c]
  show biasReluArray (W5 m ρ c (Proc.devRef .tc main_v45)) (W5 m ρ c (Proc.devRef .tc main_v46)) = _
  rw [entry1_agg, entry1_bias]
  rfl

/-! ## Exit of region 2: the second product -/

theorem keep1_arg5 : W5 m ρ c (Proc.devRef .tc main_arg5) = W4 m ρ c (Proc.devRef .tc main_arg5) := by
  show StableHlo.after hostOps1 (W4 m ρ c) (Proc.devRef .tc main_arg5) = _
  after_results_simp

theorem exit2_product : W7 m ρ c (Proc.devRef .tc main_v48) = Cert.ReferenceIdeal.Read.val_main_v78 (F := Ideal) (a0 m c) (a1 m c) (a2 m c) (a3 m c) (a4 m c) (a5 m c) := by
  refine (W7_arr m ρ c 2).trans ?_
  rw [array2 (V6 m ρ) c]
  show product2Array (W6 m ρ c (Proc.devRef .tc main_v47)) (W6 m ρ c (Proc.devRef .tc main_arg5)) = _
  rw [exit1_hidden, W6_of_ne m ρ c main_arg5 (by decide), keep1_arg5, W4_of_ne m ρ c main_arg5 (by decide), entry0_arg5]
  rfl

/-! ## What regions 0–2 and the middle host stretch leave alone -/

theorem keep1_src : W5 m ρ c (Proc.devRef .tc main_v5) = W4 m ρ c (Proc.devRef .tc main_v5) := by
  show StableHlo.after hostOps1 (W4 m ρ c) (Proc.devRef .tc main_v5) = _
  after_results_simp
theorem keep1_dst : W5 m ρ c (Proc.devRef .tc main_v6) = W4 m ρ c (Proc.devRef .tc main_v6) := by
  show StableHlo.after hostOps1 (W4 m ρ c) (Proc.devRef .tc main_v6) = _
  after_results_simp
theorem keep1_norm : W5 m ρ c (Proc.devRef .tc main_v31) = W4 m ρ c (Proc.devRef .tc main_v31) := by
  show StableHlo.after hostOps1 (W4 m ρ c) (Proc.devRef .tc main_v31) = _
  after_results_simp
theorem keep1_arg6 : W5 m ρ c (Proc.devRef .tc main_arg6) = W4 m ρ c (Proc.devRef .tc main_arg6) := by
  show StableHlo.after hostOps1 (W4 m ρ c) (Proc.devRef .tc main_arg6) = _
  after_results_simp

theorem entry3_src : W7 m ρ c (Proc.devRef .tc main_v5) = Cert.ReferenceIdeal.Read.val_main_v5 (F := Ideal) (a1 m c) := by
  rw [W7_of_ne m ρ c main_v5 (by decide), W6_of_ne m ρ c main_v5 (by decide), keep1_src, W4_of_ne m ρ c main_v5 (by decide), entry0_src]
theorem entry3_dst : W7 m ρ c (Proc.devRef .tc main_v6) = Cert.ReferenceIdeal.Read.val_main_v6 (F := Ideal) (a1 m c) := by
  rw [W7_of_ne m ρ c main_v6 (by decide), W6_of_ne m ρ c main_v6 (by decide), keep1_dst, W4_of_ne m ρ c main_v6 (by decide), entry0_dst]
theorem entry3_norm : W7 m ρ c (Proc.devRef .tc main_v31) = Cert.ReferenceIdeal.Read.val_main_v31 (F := Ideal) (a1 m c) (a2 m c) := by
  rw [W7_of_ne m ρ c main_v31 (by decide), W6_of_ne m ρ c main_v31 (by decide), keep1_norm, W4_of_ne m ρ c main_v31 (by decide), entry0_norm]
theorem entry3_arg6 : W7 m ρ c (Proc.devRef .tc main_arg6) = a6 m c := by
  rw [W7_of_ne m ρ c main_arg6 (by decide), W6_of_ne m ρ c main_arg6 (by decide), keep1_arg6, W4_of_ne m ρ c main_arg6 (by decide), entry0_arg6]

/-! ## The reference's second computation of the lists and of the normalisation is its first -/

theorem src_again (x1 : (⟨Cert.ReferenceIdeal.S2x1600000, .i32⟩ : BufTy).Contents (Elt Ideal)) :
    Cert.ReferenceIdeal.Read.val_main_v51 (F := Ideal) x1 = Cert.ReferenceIdeal.Read.val_main_v5 (F := Ideal) x1 := rfl
theorem dst_again (x1 : (⟨Cert.ReferenceIdeal.S2x1600000, .i32⟩ : BufTy).Contents (Elt Ideal)) :
    Cert.ReferenceIdeal.Read.val_main_v52 (F := Ideal) x1 = Cert.ReferenceIdeal.Read.val_main_v6 (F := Ideal) x1 := rfl
theorem norm_again (x1 : (⟨Cert.ReferenceIdeal.S2x1600000, .i32⟩ : BufTy).Contents (Elt Ideal)) (x2 : (⟨Cert.ReferenceIdeal.S1600000, .f32⟩ : BufTy).Contents (Elt Ideal)) :
    Cert.ReferenceIdeal.Read.val_main_v77 (F := Ideal) x1 x2 = Cert.ReferenceIdeal.Read.val_main_v31 (F := Ideal) x1 x2 := rfl

/-! ## Entry of region 3: the second aggregation and the bias row -/

theorem entry3_agg : W8 m ρ c (Proc.devRef .tc main_v61) = Cert.ReferenceIdeal.Read.val_main_v91 (F := Ideal) (a0 m c) (a1 m c) (a2 m c) (a3 m c) (a4 m c) (a5 m c) := by
  show StableHlo.after hostOps3 (W7 m ρ c) (Proc.devRef .tc main_v61) = _
  after_results_simp
  rw [exit2_product, entry3_src, entry3_dst, entry3_norm, ← src_again, ← dst_again, ← norm_again]
  rfl
theorem entry3_bias : W8 m ρ c (Proc.devRef .tc main_v62) = Cert.ReferenceIdeal.Read.val_main_v92 (F := Ideal) (a6 m c) := by
  show StableHlo.after hostOps3 (W7 m ρ c) (Proc.devRef .tc main_v62) = _
  after_results_simp
  rw [entry3_arg6]
  exact biasRow32 (a6 m c)

/-! ## Exit of region 3: the result -/

/-- The result array of the idealized kernel's run is the reference's last stage of the arguments. -/
theorem result_eq : W9 m ρ c (Proc.devRef .tc main_v63) = Cert.ReferenceIdeal.Read.val_main_v94 (F := Ideal) (a0 m c) (a1 m c) (a2 m c) (a3 m c) (a4 m c) (a5 m c) (a6 m c) := by
  refine (W9_arr m ρ c 2).trans ?_
  rw [array3 (V8 m ρ) c]
  show biasAddArray (W8 m ρ c (Proc.devRef .tc main_v61)) (W8 m ρ c (Proc.devRef .tc main_v62)) = _
  rw [entry3_agg, entry3_bias]
  rfl

end Cert.KernelIdeal.Hand

end
-- ==== Proof.lean ====
/-
  A two-layer graph convolution: four tiled regions against a host reference, equal at the extended reals.

  Both programs compute, from node features `X`, an edge list with weights, and two weight matrices and biases,
    out = Â · (relu (Â · (X W₁) + b₁) W₂) + b₂,   Â = D^(-1/2) (A + I) D^(-1/2),
  where applying `Â` is: gather the rows of the transformed features at the edge sources, scale each by the edge's
  normalisation, and add them into the destination rows. The reference does everything with host operations. The kernel
  keeps the edge lists, the degrees, the normalisation and the gather / scatter on the host, operation for operation as the
  reference, and computes the four dense stages in tiled regions of ten row blocks each: `X W₁`, `relu (· + b₁)`, `H W₂`,
  `· + b₂`.

  Read at the extended reals, a narrowing to bf16 is the identity, a block product accumulated from zero is the sum over
  the contracted coordinate, and the row blocks tile the arrays; so each region's output array is the host's operation of
  the region's whole input arrays (the four region modules), and the kernel's result is the reference's last stage of the
  arguments (the stages module). No algebraic law beyond this is used, and no finiteness: the precondition is never opened.

  The three frames are the generated ones (the reference's is its generated run with the result dropped); the ideal pass
  rewrote nothing, so `preserves` is `True`.
-/
import proofs.«142502_j55628416418157_1_alg».proof.Defs
import proofs.«142502_j55628416418157_1_alg».proof.Proof.Gen.Kernel
import proofs.«142502_j55628416418157_1_alg».proof.Proof.Gen.Kernel.Frame
import proofs.«142502_j55628416418157_1_alg».proof.Proof.Gen.KernelIdeal
import proofs.«142502_j55628416418157_1_alg».proof.Proof.Gen.KernelIdeal.Frame
import proofs.«142502_j55628416418157_1_alg».proof.Proof.Gen.ReferenceIdeal
import proofs.«142502_j55628416418157_1_alg».proof.Proof.Gen.ReferenceIdeal.Run
import proofs.«142502_j55628416418157_1_alg».proof.Proof.Gen.ReferenceIdeal.Read
import proofs.«142502_j55628416418157_1_alg».proof.Proof.Gen.Pre_finite_inputs
import proofs.«142502_j55628416418157_1_alg».proof.Proof.KernelRun
import proofs.«142502_j55628416418157_1_alg».proof.Proof.KernelStages
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both runs end with the result array at the reference's last stage of the (agreeing) arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.Read.val_main_v94 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Hand.result_eq m ρ c), (h c).2⟩)
      (Cert.KernelIdeal.Hand.run_result m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6⟩ := hagree c
    rw [Cert.ReferenceIdeal.Read.val_main_v94_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
